-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S3584x1024 : Shape := ⟨2, ![3584, 1024]⟩
abbrev S3584 : Shape := ⟨1, ![3584]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S3584x1024 : S_.BroadcastsInDim S3584x1024 (![] : Fin 0 → Fin S3584x1024.rank)
  reducesTo_S3584x1024_S_d0_1 : S3584x1024.ReducesTo [0, 1] S_
  bcast_S_S3584 : S_.BroadcastsInDim S3584 (![] : Fin 0 → Fin S3584.rank)
  reducesTo_S3584_S_d0 : S3584.ReducesTo [0] S_

variable [Facts]

def fn {F : FTy → Type} [FloatOps F] (main_arg0 : FVec F S32768x1024 .f32) (main_arg1 : FVec F S3584x1024 .f32) (main_arg2 : FVec F S3584 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S3584x1024 .f32 := Host.absf main_arg1
  let main_cst_0 : FVec F S_ .f32 := constant S_ .f32 0x7F800000#32
  let main_v5 : FVec F S3584x1024 .f32 := broadcastInDim S3584x1024 ![] bcast_S_S3584x1024 main_cst_0
  let main_v6 : IVec S3584x1024 1 := cmpf .olt main_v4 main_v5
  let main_c_1 : IVec S_ 1 := constantI S_ 1 1#1
  let main_v7 : IVec S_ 1 := (fun x v => Host.reduce IntOp.andi x v reducesTo_S3584x1024_S_d0_1 h_S_) main_v6 main_c_1
  let main_v8 : IVec S_ 1 := andi main_v3 main_v7
  let main_v9 : FVec F S3584 .f32 := Host.absf main_arg2
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  main_v13
-- ==== Kernel.lean ====
abbrev S32768x1024 : Shape := ⟨2, ![32768, 1024]⟩
abbrev S3584x1024 : Shape := ⟨2, ![3584, 1024]⟩
abbrev S3584 : Shape := ⟨1, ![3584]⟩
abbrev S1024x3584 : Shape := ⟨2, ![1024, 3584]⟩
abbrev S1x3584 : Shape := ⟨2, ![1, 3584]⟩
abbrev S32768x3584 : Shape := ⟨2, ![32768, 3584]⟩
abbrev S2048x1024 : Shape := ⟨2, ![2048, 1024]⟩
abbrev S1024x1792 : Shape := ⟨2, ![1024, 1792]⟩
abbrev S1x1792 : Shape := ⟨2, ![1, 1792]⟩
abbrev S2048x1792 : Shape := ⟨2, ![2048, 1792]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S3584x1024, .f32⟩
  | .hbm, ⟨2, _⟩ => ⟨S3584, .f32⟩
  | .hbm, ⟨3, _⟩ => ⟨S3584x1024, .bf16⟩
  | .hbm, ⟨4, _⟩ => ⟨S1024x3584, .bf16⟩
  | .hbm, ⟨5, _⟩ => ⟨S1x3584, .f32⟩
  | .hbm, ⟨6, _⟩ => ⟨S32768x3584, .f32⟩
  | .local _ .vmem, ⟨0, _⟩ => ⟨S2048x1024, .f32⟩
  | .local _ .vmem, ⟨1, _⟩ => ⟨S2048x1024, .f32⟩
  | .local _ .vmem, ⟨2, _⟩ => ⟨S1024x1792, .bf16⟩
  | .local _ .vmem, ⟨3, _⟩ => ⟨S1024x1792, .bf16⟩
  | .local _ .vmem, ⟨4, _⟩ => ⟨S1x1792, .f32⟩
  | .local _ .vmem, ⟨5, _⟩ => ⟨S1x1792, .f32⟩
  | .local _ .vmem, ⟨6, _⟩ => ⟨S2048x1792, .f32⟩
  | .local _ .vmem, ⟨7, _⟩ => ⟨S2048x1792, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  transposes_S3584x1024_S1024x3584_1_0 : S3584x1024.Transposes [1, 0] S1024x3584
  bcast_S3584_S1x3584_1 : S3584.BroadcastsInDim S1x3584 (![1] : Fin 1 → Fin S1x3584.rank)
  inb_S2048x1024_S2048x1024_0_0 : ∀ a, (![0, 0] : Fin 2 → Nat) a + S2048x1024.size a ≤ S2048x1024.size a
  h_S2048x1024 : 0 < S2048x1024.numel
  inb_S1024x1792_S1024x1792_0_0 : ∀ a, (![0, 0] : Fin 2 → Nat) a + S1024x1792.size a ≤ S1024x1792.size a
  h_S1024x1792 : 0 < S1024x1792.numel
  shapeCasts_S1024x1792_S1024x1792 : S1024x1792.ShapeCasts S1024x1792
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S2048x1792 : S1x1792.Broadcasts S2048x1792
  inb_S2048x1792_S2048x1792_0_0 : ∀ a, (![0, 0] : Fin 2 → Nat) a + S2048x1792.size a ≤ S2048x1792.size a
  h_S2048x1792 : 0 < S2048x1792.numel
  dot_S2048x1024_S1024x1792_S2048x1792_1_0_0_1_n_n_wf : DotDims.WF S2048x1024 S1024x1792 S2048x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1792.size a ≤ S1024x3584.size a
  hwx0_1 : ∀ i : grid0.Coords, EltTy.bits .bf16 = 32 ∨ (Rect.block (s := S1024x3584) S1024x1792.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1792.size a ≤ S1x3584.size a
  hwx0_2 : ∀ i : grid0.Coords, EltTy.bits .f32 = 32 ∨ (Rect.block (s := S1x3584) S1x1792.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1792.size a ≤ S32768x3584.size a
  hwx0_3 : ∀ i : grid0.Coords, EltTy.bits .f32 = 32 ∨ (Rect.block (s := S32768x3584) S2048x1792.size (cc0_transform_3 i) (hinb0_3 i)).WholeWords (EltTy.packing .f32)

variable [Facts₀]

def dot_S2048x1024_S1024x1792_S2048x1792_1_0_0_1_n_n : DotDims S2048x1024 S1024x1792 S2048x1792 where
  lhsContracting := [1]
  rhsContracting := [0]
  lhsNonContracting := [0]
  rhsNonContracting := [1]
  lhsBatch := []
  rhsBatch := []
  wf := dot_S2048x1024_S1024x1792_S2048x1792_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1792.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S3584x1024 : Shape := ⟨2, ![3584, 1024]⟩
abbrev S3584 : Shape := ⟨1, ![3584]⟩
abbrev S1024x3584 : Shape := ⟨2, ![1024, 3584]⟩
abbrev S32768x3584 : Shape := ⟨2, ![32768, 3584]⟩
abbrev S1x3584 : Shape := ⟨2, ![1, 3584]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S3584x1024, .f32⟩
  | .hbm, ⟨2, _⟩ => ⟨S3584, .f32⟩
  | .hbm, ⟨3, _⟩ => ⟨S1024x3584, .f32⟩
  | .hbm, ⟨4, _⟩ => ⟨S32768x3584, .f32⟩
  | .hbm, ⟨5, _⟩ => ⟨S1x3584, .f32⟩
  | .hbm, ⟨6, _⟩ => ⟨S32768x3584, .f32⟩
  | .hbm, ⟨7, _⟩ => ⟨S32768x3584, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S3584x1024_S1024x3584_1_0 : S3584x1024.Transposes [1, 0] S1024x3584
  bcast_S3584_S1x3584_1 : S3584.BroadcastsInDim S1x3584 (![1] : Fin 1 → Fin S1x3584.rank)
  bcast_S1x3584_S32768x3584_0_1 : S1x3584.BroadcastsInDim S32768x3584 (![0, 1] : Fin 2 → Fin S32768x3584.rank)
  dot_S32768x1024_S1024x3584_S32768x3584_1_0_0_1_n_n_wf : DotDims.WF S32768x1024 S1024x3584 S32768x3584 [1] [0] [0] [1] [] []

variable [Facts₀]

def dot_S32768x1024_S1024x3584_S32768x3584_1_0_0_1_n_n : DotDims S32768x1024 S1024x3584 S32768x3584 where
  lhsContracting := [1]
  rhsContracting := [0]
  lhsNonContracting := [0]
  rhsNonContracting := [1]
  lhsBatch := []
  rhsBatch := []
  wf := dot_S32768x1024_S1024x3584_S32768x3584_1_0_0_1_n_n_wf

class Facts : Prop extends Facts₀ where

variable [Facts]
-- ==== Proof.Projection.lean ====
/-
  The dense projection `x · Wᵀ + b` as ONE function of the three argument arrays, index by index, on the
  extended reals: entry (r, c) is the sum over the 1024 shared coordinates k of x[r, k] · W[c, k], plus b[c].
  Both programs compute exactly this function at the ideal instance — the kernel block by block (a block
  of 2048 rows of `x` against a block of 1792 rows of `W`, transposed on the host beforehand, the matrix
  product accumulated into a zero block, a block of `b` added to every row), the reference by one
  whole-array product and one broadcast add — so no algebraic law beyond `0 + s = s` joins them: a block
  of the sum IS the sum at the block's indices, whatever the entries are (infinite ones included).
-/
import Idealize.ShloMosaic.PureOps.Ideal
import Idealize.ShloMosaic.Lib.ValueIdx

noncomputable section

namespace Cert.Projection

open Idealize.ShloMosaic Idealize.ShloMosaic.ValueIdx

/-- Entry (r, c) of the projection: row r of `x` against row c of `W` over their 1024 shared coordinates,
    plus entry c of `b`. -/
def proj (x : FVec Ideal ⟨2, ![32768, 1024]⟩ .f32) (W : FVec Ideal ⟨2, ![3584, 1024]⟩ .f32)
    (b : FVec Ideal ⟨1, ![3584]⟩ .f32) : FVec Ideal ⟨2, ![32768, 3584]⟩ .f32 :=
  fun i => (∑ k : Fin 1024, x (ix2 (i 0) k) * W (ix2 (i 1) k)) + b (ix1 (i 1))

/-- The same entry with the two coordinates of the index named. -/
theorem proj_apply (x : FVec Ideal ⟨2, ![32768, 1024]⟩ .f32) (W : FVec Ideal ⟨2, ![3584, 1024]⟩ .f32)
    (b : FVec Ideal ⟨1, ![3584]⟩ .f32) (r : Fin 32768) (s : Fin 3584) :
    proj x W b (ix2 r s) = (∑ k : Fin 1024, x (ix2 r k) * W (ix2 s k)) + b (ix1 s) := rfl

end Cert.Projection

end
-- ==== Proof.RefProjection.lean ====
/-
  The reference's result is the projection. Its five host operations, read one at a time at an output
  index (r, c): the transpose of `W` at (k, c) is W[c, k]; the whole-array product at (r, c) is the sum
  over k of x[r, k] times that; the two broadcasts of `b` read b[c]; the final add joins them. So the
  composed term is `Projection.proj` once the composed index functions are recognised as the pairs
  (r, k), (c, k) and the single coordinate c.
-/
import proofs.«181878_g61890478735714_cont_9to1c4b_480_25_alg».proof.Proof.Gen.ReferenceIdeal.Read
import proofs.«181878_g61890478735714_cont_9to1c4b_480_25_alg».proof.Proof.Projection

noncomputable section

namespace Cert.ReferenceIdeal.RefProjection

open Cert.ReferenceIdeal Cert.ReferenceIdeal.Gen Cert.ReferenceIdeal.Read
open Idealize.ShloMosaic Idealize.ShloMosaic.ValueIdx

/-- The product's left operand is read at (r, k). -/
theorem left_index (i : S32768x3584.Idx) (k : Fin 1024) : lidx_main_v1 i k = ix2 (i 0) k :=
  funext fun a => by match a with | ⟨0, _⟩ => rfl | ⟨1, _⟩ => rfl

/-- The product's right operand is the transpose of `W` at (k, c), which is `W` at (c, k). -/
theorem right_index (i : S32768x3584.Idx) (k : Fin 1024) : idx_main_v0 (ridx_main_v1 i k) = ix2 (i 1) k :=
  funext fun a => by match a with | ⟨0, _⟩ => rfl | ⟨1, _⟩ => rfl

/-- The twice-broadcast bias is read at c. -/
theorem bias_index (i : S32768x3584.Idx) : idx_main_v2 (idx_main_v3 i) = ix1 (i 1) :=
  funext fun a => by match a with | ⟨0, _⟩ => rfl

/-- The reference's last stage is the projection of its three arguments. -/
theorem result_eq (x : (⟨S32768x1024, .f32⟩ : BufTy).Contents (Elt Ideal)) (W : (⟨S3584x1024, .f32⟩ : BufTy).Contents (Elt Ideal))
    (b : (⟨S3584, .f32⟩ : BufTy).Contents (Elt Ideal)) :
    val_main_v4 (F := Ideal) x W b = Cert.Projection.proj x W b := by
  funext i
  rw [val_main_v4_apply, val_main_v1_apply, val_main_v3_apply, val_main_v2_apply]
  simp only [val_main_v0_apply, left_index, right_index, bias_index]
  rfl

end Cert.ReferenceIdeal.RefProjection

end
-- ==== Proof.Body.lean ====
/-
  What the kernel body stores, read at one index of its output block. The body loads a block of 2048 rows
  of `x` (all 1024 columns), a block of 1792 columns of the transposed weights (all 1024 rows) and the
  matching 1792 entries of the bias row; rounds the `x` block to bf16 (the identity on the extended reals),
  multiplies the two blocks into a zero accumulator, and adds the bias row to every row of the product.
  At (p, q) of the block that is: the sum over k of xblock[p, k] · wblock[k, q] — the zero accumulator adds
  nothing —, plus biasrow[0, q].
-/
import proofs.«181878_g61890478735714_cont_9to1c4b_480_25_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-! ## The block product's operand indices -/

/-- The left operand's row is the output's row. -/
theorem left_row (i : S2048x1792.Idx) (κ : dot_S2048x1024_S1024x1792_S2048x1792_1_0_0_1_n_n.contr.Idx) :
    (dot_S2048x1024_S1024x1792_S2048x1792_1_0_0_1_n_n.lhsIdx i κ 0).val = (i 0).val := by
  unfold DotDims.lhsIdx
  rw [dif_neg (show ¬(0 : Fin S2048x1024.rank) ∈ dot_S2048x1024_S1024x1792_S2048x1792_1_0_0_1_n_n.lhsBatch by decide),
    dif_pos (show (0 : Fin S2048x1024.rank) ∈ dot_S2048x1024_S1024x1792_S2048x1792_1_0_0_1_n_n.lhsNonContracting by decide)]
  rfl

/-- The left operand's column is the contracted coordinate. -/
theorem left_col (i : S2048x1792.Idx) (κ : dot_S2048x1024_S1024x1792_S2048x1792_1_0_0_1_n_n.contr.Idx) :
    (dot_S2048x1024_S1024x1792_S2048x1792_1_0_0_1_n_n.lhsIdx i κ 1).val = (κ ⟨0, by decide⟩).val :=
  dot_S2048x1024_S1024x1792_S2048x1792_1_0_0_1_n_n.lhsIdx_val_of_single rfl i κ

/-- The right operand's row is the contracted coordinate. -/
theorem right_row (i : S2048x1792.Idx) (κ : dot_S2048x1024_S1024x1792_S2048x1792_1_0_0_1_n_n.contr.Idx) :
    (dot_S2048x1024_S1024x1792_S2048x1792_1_0_0_1_n_n.rhsIdx i κ 0).val = (κ ⟨0, by decide⟩).val :=
  dot_S2048x1024_S1024x1792_S2048x1792_1_0_0_1_n_n.rhsIdx_val_of_single rfl i κ

/-- The right operand's column is the output's column. -/
theorem right_col (i : S2048x1792.Idx) (κ : dot_S2048x1024_S1024x1792_S2048x1792_1_0_0_1_n_n.contr.Idx) :
    (dot_S2048x1024_S1024x1792_S2048x1792_1_0_0_1_n_n.rhsIdx i κ 1).val = (i 1).val := by
  unfold DotDims.rhsIdx
  rw [dif_neg (show ¬(1 : Fin S1024x1792.rank) ∈ dot_S2048x1024_S1024x1792_S2048x1792_1_0_0_1_n_n.rhsBatch by decide),
    dif_pos (show (1 : Fin S1024x1792.rank) ∈ dot_S2048x1024_S1024x1792_S2048x1792_1_0_0_1_n_n.rhsNonContracting by decide)]
  rfl

/-! ## The three pieces of the payload at (p, q) -/

/-- The block product into a zero accumulator, at (p, q): the plain sum over the 1024 contracted coordinates. -/
theorem product_at (l : FVec Ideal S2048x1024 .bf16) (r : FVec Ideal S1024x1792 .bf16) (p : Fin 2048) (q : Fin 1792) :
    FloatOps.matmul dot_S2048x1024_S1024x1792_S2048x1792_1_0_0_1_n_n none l r (constant S2048x1792 .f32 0x00000000#32) (ix2 p q)
      = ∑ k : Fin 1024, l (ix2 p k) * r (ix2 k q) := by
  rw [Ideal.matmul_constant_zero_apply,
    ← Equiv.sum_comp (contrEquiv1 dot_S2048x1024_S1024x1792_S2048x1792_1_0_0_1_n_n 1024 rfl rfl).symm]
  refine Finset.sum_congr rfl fun k _ => ?_
  have hk := contrEquiv1_symm_val dot_S2048x1024_S1024x1792_S2048x1792_1_0_0_1_n_n 1024 rfl rfl k
  have el : dot_S2048x1024_S1024x1792_S2048x1792_1_0_0_1_n_n.lhsIdx (ix2 p q) ((contrEquiv1 dot_S2048x1024_S1024x1792_S2048x1792_1_0_0_1_n_n 1024 rfl rfl).symm k) = ix2 p k :=
    funext fun a => Fin.ext (by
      match a with
      | ⟨0, _⟩ => exact left_row _ _
      | ⟨1, _⟩ => exact (left_col _ _).trans hk)
  have er : dot_S2048x1024_S1024x1792_S2048x1792_1_0_0_1_n_n.rhsIdx (ix2 p q) ((contrEquiv1 dot_S2048x1024_S1024x1792_S2048x1792_1_0_0_1_n_n 1024 rfl rfl).symm k) = ix2 k q :=
    funext fun a => Fin.ext (by
      match a with
      | ⟨0, _⟩ => exact (right_row _ _).trans hk
      | ⟨1, _⟩ => exact right_col _ _)
  rw [el, er]

/-- The bias row broadcast down the 2048 rows, at (p, q): its entry (0, q). -/
theorem bias_at (v : FVec Ideal S1x1792 .f32) (p : Fin 2048) (q : Fin 1792) :
    broadcastTo S2048x1792 v broadcasts_S1x1792_S2048x1792 (ix2 p q) = v (ix2 (0 : Fin 1) q) :=
  broadcastTo_apply v broadcasts_S1x1792_S2048x1792 (ix2 p q) (ix2 (0 : Fin 1) q) (fun a => match a with
    | ⟨0, _⟩ => by show (0 : Nat) = if (1 : Nat) = 1 then 0 else p.val; rw [if_pos rfl]
    | ⟨1, _⟩ => by show q.val = if (1792 : Nat) = 1 then 0 else q.val; rw [if_neg (by decide)])

/-- THE PAYLOAD AT (p, q): the row of the `x` block against the column of the weight block, plus the bias entry. -/
theorem payload_at (x0 : Vec Ideal S2048x1024 .f32) (x1 : Vec Ideal S1024x1792 .bf16) (x2 : Vec Ideal S1x1792 .f32)
    (p : Fin 2048) (q : Fin 1792) :
    k0_pay1 (F := Ideal) x0 x1 x2 (ix2 p q) = (∑ k : Fin 1024, x0 (ix2 p k) * x1 (ix2 k q)) + x2 (ix2 (0 : Fin 1) q) := by
  unfold k0_pay1
  rw [shapeCast_self, shapeCast_self]
  show FloatOps.matmul (F := Ideal) dot_S2048x1024_S1024x1792_S2048x1792_1_0_0_1_n_n none (truncf (F := Ideal) .bf16 (x0 : FVec Ideal S2048x1024 .f32) bitsLt_bf16_f32)
        (x1 : FVec Ideal S1024x1792 .bf16) (constant S2048x1792 .f32 0x00000000#32) (ix2 p q)
      + broadcastTo S2048x1792 (x2 : FVec Ideal S1x1792 .f32) broadcasts_S1x1792_S2048x1792 (ix2 p q) = _
  rw [product_at, bias_at]
  rfl

end Cert.KernelIdeal.Body

end
-- ==== Proof.Entry.lean ====
/-
  The arrays the kernel's windows read, as the region finds them. Three host operations run before the
  region: the weights are rounded to bf16 (the identity on the extended reals) and transposed, so the array
  the second window stages holds W[c, k] at (k, c); the bias is given a leading unit axis, so the array the
  third window stages holds b[c] at (0, c). The first window stages `x` itself.
-/
import proofs.«181878_g61890478735714_cont_9to1c4b_480_25_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The transposed-weights array at region entry: the transpose of the (rounded) weights. -/
theorem weights_entry (c : Dev nD) :
    (V m c main_v1 : S1024x3584.Idx → EReal)
      = (transpose S1024x3584 [1, 0] (truncf (F := Ideal) .bf16 (m ((c : Thread nD τ).loc main_arg1) : FVec Ideal S3584x1024 .f32) bitsLt_bf16_f32)
          transposes_S3584x1024_S1024x3584_1_0 : S1024x3584.Idx → EReal) := by
  dsimp only [Gen.V, Gen.hostOps0]; after_results <;> rfl

/-- At (k, j) it holds W[j, k]. -/
theorem weights_at (c : Dev nD) (k : Fin 1024) (j : Fin 3584) :
    (V m c main_v1 : S1024x3584.Idx → EReal) (ix2 k j) = (m ((c : Thread nD τ).loc main_arg1) : S3584x1024.Idx → EReal) (ix2 j k) := by
  rw [weights_entry]
  exact transpose_apply [1, 0] _ transposes_S3584x1024_S1024x3584_1_0 (ix2 k j) (ix2 j k) (fun b => match b with
    | ⟨0, _⟩ => rfl
    | ⟨1, _⟩ => rfl)

/-- The bias row at region entry: the bias with a leading unit axis. -/
theorem bias_entry (c : Dev nD) :
    (V m c main_v2 : S1x3584.Idx → EReal)
      = (broadcastInDim S1x3584 ![1] bcast_S3584_S1x3584_1 (m ((c : Thread nD τ).loc main_arg2) : FVec Ideal S3584 .f32) : S1x3584.Idx → EReal) := by
  dsimp only [Gen.V, Gen.hostOps0]; after_results <;> rfl

/-- At (0, j) it holds b[j]. -/
theorem bias_at (c : Dev nD) (j : Fin 3584) :
    (V m c main_v2 : S1x3584.Idx → EReal) (ix2 (0 : Fin 1) j) = (m ((c : Thread nD τ).loc main_arg2) : S3584.Idx → EReal) (ix1 j) := by
  rw [bias_entry]
  exact broadcastInDim_apply _ bcast_S3584_S1x3584_1 _ (ix2 (0 : Fin 1) j) (ix1 j) (fun a => match a with
    | ⟨0, _⟩ => by show j.val = if (3584 : Nat) = 1 then 0 else j.val; rw [if_neg (by decide)])

end Cert.KernelIdeal.Entry

end
-- ==== Proof.Blocks.lean ====
/-
  From blocks to the array. The grid has 16 × 2 points; point t = (I, J) stages rows 2048·I … 2048·I + 2047 of
  `x` (all columns), columns 1792·J … 1792·J + 1791 of the transposed weights (all rows) and of the bias row,
  and writes back block (I, J) of the result: rows 2048·I …, columns 1792·J …. Entry (p, q) of what it writes is
  the body's payload there — row p of the `x` block against column q of the weight block, plus bias entry q —,
  and reading each block where it sits in its array, that is the projection at (2048·I + p, 1792·J + q): the
  sum runs over the same 1024 coordinates in the same terms. So every point writes its block of ONE function,
  `Projection.proj` of the argument arrays; the 32 blocks cover the result array (row r, column s lies in block
  (r / 2048, s / 1792)); hence the array ends holding that function.
-/
import proofs.«181878_g61890478735714_cont_9to1c4b_480_25_alg».proof.Proof.Gen.KernelIdeal.Value
import proofs.«181878_g61890478735714_cont_9to1c4b_480_25_alg».proof.Proof.Body
import proofs.«181878_g61890478735714_cont_9to1c4b_480_25_alg».proof.Proof.Entry
import proofs.«181878_g61890478735714_cont_9to1c4b_480_25_alg».proof.Proof.Projection

noncomputable section

namespace Cert.KernelIdeal.Blocks

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- How the four windows' block indices move over the grid: the `x` window follows the result's row block and
    stays at column block 0; the weight and bias windows stay at row block 0 and follow the result's column
    block; the result's block indices stay within 16 × 2. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 1 :=
  (by decide +kernel : ∀ t : Fin grid0.N, _)

/-- Every one of the 16 × 2 result blocks is some point's. -/
theorem block_onto : ∀ (a : Fin 16) (b : Fin 2), ∃ t : Fin cfg0.N, win0_3.index t = ![a.val, b.val] :=
  (by decide +kernel : ∀ (a : Fin 16) (b : Fin 2), ∃ t : Fin grid0.N, win0_3.index t = ![a.val, b.val])

/-- The projection of the three argument arrays as launched. -/
abbrev result (c : Dev nD) : S32768x3584.Idx → EReal :=
  Cert.Projection.proj (m ((c : Thread nD τ).loc main_arg0)) (m ((c : Thread nD τ).loc main_arg1)) (m ((c : Thread nD τ).loc main_arg2))

/-! ## Each input block, read where it sits in its array -/

/-- Entry (p, k) of the `x` block at point `t` is x[r, k], r the block's row offset plus p. -/
theorem x_block_at (c : Dev nD) (t : Fin cfg0.N) (p : Fin 2048) (k : Fin 1024) (r : Fin 32768)
    (hr : r.val = win0_3.index t (0 : Fin 2) * 2048 + p.val) :
    (iblk m c 0 t : Vec Ideal S2048x1024 .f32) (ix2 p k)
      = (m ((c : Thread nD τ).loc main_arg0) : S32768x1024.Idx → EReal) (ix2 r k) := by
  obtain ⟨e0, e1, -⟩ := block_indices t
  unfold iblk
  rw [View.read_apply]
  show V m c main_arg0 _ = _
  rw [V_main_arg0]
  refine congrArg (m ((c : Thread nD τ).loc main_arg0) : S32768x1024.Idx → EReal) (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- Entry (k, q) of the weight block at point `t` is W[s, k], s the block's column offset plus q. -/
theorem w_block_at (c : Dev nD) (t : Fin cfg0.N) (k : Fin 1024) (q : Fin 1792) (s : Fin 3584)
    (hs : s.val = win0_3.index t (1 : Fin 2) * 1792 + q.val) :
    (iblk m c 1 t : Vec Ideal S1024x1792 .bf16) (ix2 k q)
      = (m ((c : Thread nD τ).loc main_arg1) : S3584x1024.Idx → EReal) (ix2 s k) := by
  obtain ⟨-, -, e2, e3, -⟩ := block_indices t
  unfold iblk
  rw [View.read_apply]
  show (V m c main_v1 : S1024x3584.Idx → EReal) _ = _
  refine (congrArg (V m c main_v1 : S1024x3584.Idx → EReal) (funext fun a => Fin.ext ?_)).trans (Entry.weights_at m c k s)
  match a with
  | ⟨0, _⟩ => show win0_1.index t (0 : Fin 2) * 1024 + 1 * k.val = k.val; omega
  | ⟨1, _⟩ => show win0_1.index t (1 : Fin 2) * 1792 + 1 * q.val = s.val; omega

/-- Entry (0, q) of the bias block at point `t` is b[s], s the block's column offset plus q. -/
theorem b_block_at (c : Dev nD) (t : Fin cfg0.N) (q : Fin 1792) (s : Fin 3584)
    (hs : s.val = win0_3.index t (1 : Fin 2) * 1792 + q.val) :
    (iblk m c 2 t : Vec Ideal S1x1792 .f32) (ix2 (0 : Fin 1) q)
      = (m ((c : Thread nD τ).loc main_arg2) : S3584.Idx → EReal) (ix1 s) := by
  obtain ⟨-, -, -, -, e4, e5, -⟩ := block_indices t
  unfold iblk
  rw [View.read_apply]
  show (V m c main_v2 : S1x3584.Idx → EReal) _ = _
  refine (congrArg (V m c main_v2 : S1x3584.Idx → EReal) (funext fun a => Fin.ext ?_)).trans (Entry.bias_at m c s)
  match a with
  | ⟨0, _⟩ => show win0_2.index t (0 : Fin 2) * 1 + 1 * 0 = 0; omega
  | ⟨1, _⟩ => show win0_2.index t (1 : Fin 2) * 1792 + 1 * q.val = s.val; omega

/-! ## What a point writes back, the cover, the array -/

/-- WHAT POINT `t` WRITES BACK is block `t` of the projection of the argument arrays. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S2048x1024) zero_offsets, View.ld_unit_zero (S := S1024x1792) zero_offsets,
    View.ld_unit_zero (S := S1x1792) zero_offsets]
  funext j
  obtain ⟨p, q, rfl⟩ : ∃ (p : Fin 2048) (q : Fin 1792), j = ix2 p q := ⟨j 0, j 1, eq_ix2 j⟩
  obtain ⟨-, -, -, -, -, -, b0, b1⟩ := block_indices t
  have hr : win0_3.index t (0 : Fin 2) * 2048 + p.val < 32768 := by have := p.isLt; omega
  have hs : win0_3.index t (1 : Fin 2) * 1792 + q.val < 3584 := by have := q.isLt; omega
  have hemb : (((cfg0.win 3).blk t).view.emb (ix2 p q) : S32768x3584.Idx)
      = ix2 (⟨win0_3.index t (0 : Fin 2) * 2048 + p.val, hr⟩ : Fin 32768) (⟨win0_3.index t (1 : Fin 2) * 1792 + q.val, hs⟩ : Fin 3584) := by
    funext a; apply Fin.ext
    match a with
    | ⟨0, _⟩ => show win0_3.index t (0 : Fin 2) * 2048 + 1 * p.val = win0_3.index t (0 : Fin 2) * 2048 + p.val; omega
    | ⟨1, _⟩ => show win0_3.index t (1 : Fin 2) * 1792 + 1 * q.val = win0_3.index t (1 : Fin 2) * 1792 + q.val; omega
  show k0_pay1 (F := Ideal) (iblk m c 0 t) (iblk m c 1 t) (iblk m c 2 t) (ix2 p q)
      = result m c (((cfg0.win 3).blk t).view.emb (ix2 p q))
  rw [hemb]
  refine (Body.payload_at (iblk m c 0 t) (iblk m c 1 t) (iblk m c 2 t) p q).trans ?_
  refine Eq.trans ?_ (Cert.Projection.proj_apply _ _ _ ⟨_, hr⟩ ⟨_, hs⟩).symm
  exact congrArg₂ (· + ·)
    (Finset.sum_congr rfl fun k _ => congrArg₂ (· * ·) (x_block_at m c t p k ⟨_, hr⟩ rfl) (w_block_at m c t k q ⟨_, hs⟩ rfl))
    (b_block_at m c t q ⟨_, hs⟩ rfl)

/-- An index of the result array is in point `t`'s block iff each coordinate is in the block's range on its axis. -/
theorem mem_block (t : Fin cfg0.N) (i : S32768x3584.Idx) :
    i ∈ ((cfg0.win 3).blk t).view.set ↔ ∀ a : Fin 2, win0_3.index t a * S2048x1792.size a ≤ (i a).val
      ∧ (i a).val < win0_3.index t a * S2048x1792.size a + S2048x1792.size a := by
  show i ∈ ((View.whole main_v3).slice (win0_3.rect t)).set ↔ _
  rw [View.set_slice_whole, Rect.mem_set_unit]
  exact Iff.rfl

/-- Every index of the result array lies in some point's block: (r, s) in block (r / 2048, s / 1792). -/
theorem covered (i : S32768x3584.Idx) :
    ∃ t : Fin cfg0.N, (cfg0.win 3).flush t = true ∧ i ∈ ((cfg0.win 3).blk t).view.set := by
  have hi0 : (i 0).val < 32768 := (i 0).isLt
  have hi1 : (i 1).val < 3584 := (i 1).isLt
  obtain ⟨t, ht⟩ := block_onto ⟨(i 0).val / 2048, by omega⟩ ⟨(i 1).val / 1792, by omega⟩
  have q0 : win0_3.index t (0 : Fin 2) = (i 0).val / 2048 := congrFun ht 0
  have q1 : win0_3.index t (1 : Fin 2) = (i 1).val / 1792 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1792 ≤ (i 1).val ∧ (i 1).val < win0_3.index t (1 : Fin 2) * 1792 + 1792; omega

/-- THE RESULT ARRAY after the run is the projection of the argument arrays. -/
theorem final (c : Dev nD) : (dats m 0 c).arrAt 3 cfg0.N = result m c :=
  (dats m 0 c).arrAt_eq_of_cover 3 (result m c) (fun t _ => flushed_eq m c t) covered

/-- The kernel's run, read: the result array at the projection, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  A dense projection `out = x · Wᵀ + b` (x : 32768 × 1024, W : 3584 × 1024, b : 3584) computed by a tiled
  kernel, against the plain whole-array formula, over the extended reals.

  The kernel transposes the weights on the host (rounding them to bf16, which changes nothing on the extended
  reals), gives the bias a leading unit axis, and runs a 16 × 2 grid: point (I, J) multiplies rows
  2048·I … of `x` by columns 1792·J … of the transposed weights into a zero accumulator and adds the bias
  entries of those columns to every row. The reference transposes the weights, takes one whole matrix product
  and adds the broadcast bias. Entry (r, c) of either result is

      (Σ k < 1024, x[r, k] · W[c, k]) + b[c]

  — `Projection.proj`. On the kernel's side the zero accumulator contributes `0 + s = s`, each block read
  where it sits in its array gives the terms of that very sum, and the 32 blocks cover the result array
  (`Blocks.run`); on the reference's side the five host operations read one at a time give the same entry
  (`RefProjection.result_eq`). Nothing is reassociated or distributed, so the equality holds for every
  extended-real input and the finiteness of the inputs is not used. The idealization rewrote no operation
  of the kernel, so the conjunct that relates the kernel to its idealization is the trivial one; each
  program's termination with unchanged arguments is its frame run (the reference's is its run with the
  result dropped).
-/
import proofs.«181878_g61890478735714_cont_9to1c4b_480_25_alg».proof.Defs
import proofs.«181878_g61890478735714_cont_9to1c4b_480_25_alg».proof.Proof.Gen.Kernel
import proofs.«181878_g61890478735714_cont_9to1c4b_480_25_alg».proof.Proof.Gen.Kernel.Frame
import proofs.«181878_g61890478735714_cont_9to1c4b_480_25_alg».proof.Proof.Gen.KernelIdeal
import proofs.«181878_g61890478735714_cont_9to1c4b_480_25_alg».proof.Proof.Gen.KernelIdeal.Frame
import proofs.«181878_g61890478735714_cont_9to1c4b_480_25_alg».proof.Proof.Gen.KernelIdeal.Value
import proofs.«181878_g61890478735714_cont_9to1c4b_480_25_alg».proof.Proof.Gen.ReferenceIdeal
import proofs.«181878_g61890478735714_cont_9to1c4b_480_25_alg».proof.Proof.Gen.ReferenceIdeal.Run
import proofs.«181878_g61890478735714_cont_9to1c4b_480_25_alg».proof.Proof.Gen.ReferenceIdeal.Read
import proofs.«181878_g61890478735714_cont_9to1c4b_480_25_alg».proof.Proof.Gen.Pre_finite_inputs
import proofs.«181878_g61890478735714_cont_9to1c4b_480_25_alg».proof.Proof.RefProjection
import proofs.«181878_g61890478735714_cont_9to1c4b_480_25_alg».proof.Proof.Blocks
import Idealize.ShloMosaic.Adequacy
import Idealize.ShloMosaic.Init

noncomputable section

namespace Cert.Proof

open Idealize.ShloMosaic Idealize.ShloMosaic.TcCoe Idealize.SL.Sem

/-- The kernel as printed terminates without a fault and leaves its three arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, W and b, the tiled kernel and the whole-array formula both end with the
    projection of those arrays in their result: the kernel block by block, the reference operation by
    operation, one function of the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v4_eq]
  exact Cert.ReferenceIdeal.RefProjection.result_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
